-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x640 : Shape := ⟨3, ![8, 256, 640]⟩
abbrev S8x64x640 : Shape := ⟨3, ![8, 64, 640]⟩
abbrev S1024x640 : Shape := ⟨2, ![1024, 640]⟩
abbrev S1024 : Shape := ⟨1, ![1024]⟩
abbrev S_ : Shape := ⟨0, ![]⟩

class Facts : Prop where
  bcast_S_S8x256x640 : S_.BroadcastsInDim S8x256x640 (![] : Fin 0 → Fin S8x256x640.rank)
  reducesTo_S8x256x640_S_d0_1_2 : S8x256x640.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x640 .f32) (main_arg1 : FVec F S8x64x640 .f32) (main_arg2 : FVec F S1024x640 .f32) (main_arg3 : FVec F S1024 .f32) : IVec S_ 1 :=
  let main_v0 : FVec F S8x256x640 .f32 := Host.absf main_arg0
  let main_cst : FVec F S_ .f32 := constant S_ .f32 0x7F800000#32
  let main_v1 : FVec F S8x256x640 .f32 := broadcastInDim S8x256x640 ![] bcast_S_S8x256x640 main_cst
  let main_v2 : IVec S8x256x640 1 := cmpf .olt main_v0 main_v1
  let main_c : IVec S_ 1 := constantI S_ 1 1#1
  let main_v3 : IVec S_ 1 := (fun x v => Host.reduce IntOp.andi x v reducesTo_S8x256x640_S_d0_1_2 h_S_) main_v2 main_c
  let main_v4 : FVec F S8x64x640 .f32 := Host.absf main_arg1
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S1024x640 .f32 := Host.absf main_arg2
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x640 : Shape := ⟨3, ![8, 256, 640]⟩
abbrev S8x64x640 : Shape := ⟨3, ![8, 64, 640]⟩
abbrev S1024x640 : Shape := ⟨2, ![1024, 640]⟩
abbrev S1024 : Shape := ⟨1, ![1024]⟩
abbrev S8x256x64x1024 : Shape := ⟨4, ![8, 256, 64, 1024]⟩
abbrev S1x32x640 : Shape := ⟨3, ![1, 32, 640]⟩
abbrev S1x64x640 : Shape := ⟨3, ![1, 64, 640]⟩
abbrev S1x32x64x1024 : Shape := ⟨4, ![1, 32, 64, 1024]⟩
abbrev S32x640 : Shape := ⟨2, ![32, 640]⟩
abbrev S64x640 : Shape := ⟨2, ![64, 640]⟩
abbrev S32x1x640 : Shape := ⟨3, ![32, 1, 640]⟩
abbrev S32x64x640 : Shape := ⟨3, ![32, 64, 640]⟩
abbrev S2048x640 : Shape := ⟨2, ![2048, 640]⟩
abbrev S2048x1024 : Shape := ⟨2, ![2048, 1024]⟩
abbrev S32x64x1024 : Shape := ⟨3, ![32, 64, 1024]⟩
abbrev S1x1x1024 : Shape := ⟨3, ![1, 1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8x256x640, .f32⟩
  | .hbm, ⟨1, _⟩ => ⟨S8x64x640, .f32⟩
  | .hbm, ⟨2, _⟩ => ⟨S1024x640, .f32⟩
  | .hbm, ⟨3, _⟩ => ⟨S1024, .f32⟩
  | .hbm, ⟨4, _⟩ => ⟨S1024x640, .bf16⟩
  | .hbm, ⟨5, _⟩ => ⟨S8x256x64x1024, .f32⟩
  | .local _ .vmem, ⟨0, _⟩ => ⟨S1x32x640, .f32⟩
  | .local _ .vmem, ⟨1, _⟩ => ⟨S1x32x640, .f32⟩
  | .local _ .vmem, ⟨2, _⟩ => ⟨S1x64x640, .f32⟩
  | .local _ .vmem, ⟨3, _⟩ => ⟨S1x64x640, .f32⟩
  | .local _ .vmem, ⟨4, _⟩ => ⟨S1024x640, .bf16⟩
  | .local _ .vmem, ⟨5, _⟩ => ⟨S1024, .f32⟩
  | .local _ .vmem, ⟨6, _⟩ => ⟨S1x32x64x1024, .f32⟩
  | .local _ .vmem, ⟨7, _⟩ => ⟨S1x32x64x1024, .f32⟩
  | _, _ => ⟨S8x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S32x640_S32x1x640 : S32x640.ShapeCasts S32x1x640
  shapeCasts_S64x640_S1x64x640 : S64x640.ShapeCasts S1x64x640
  broadcasts_S32x1x640_S32x64x640 : S32x1x640.Broadcasts S32x64x640
  broadcasts_S1x64x640_S32x64x640 : S1x64x640.Broadcasts S32x64x640
  shapeCasts_S32x64x640_S2048x640 : S32x64x640.ShapeCasts S2048x640
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  shapeCasts_S2048x1024_S32x64x1024 : S2048x1024.ShapeCasts S32x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S32x64x1024 : S1x1x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S2048x640_S1024x640_S2048x1024_1_1_0_0_n_n_wf : DotDims.WF S2048x640 S1024x640 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x640.size a ≤ S8x256x640.size a
  hwx0_0 : ∀ i : grid0.Coords, EltTy.bits .f32 = 32 ∨ (Rect.block (s := S8x256x640) S1x32x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S8x64x640.size a
  hwx0_1 : ∀ i : grid0.Coords, EltTy.bits .f32 = 32 ∨ (Rect.block (s := S8x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .bf16 = 32 ∨ (Rect.block (s := S1024x640) S1024x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S8x256x64x1024.size a
  hwx0_4 : ∀ i : grid0.Coords, EltTy.bits .f32 = 32 ∨ (Rect.block (s := S8x256x64x1024) S1x32x64x1024.size (cc0_transform_4 i) (hinb0_4 i)).WholeWords (EltTy.packing .f32)

variable [Facts₀]

def dot_S2048x640_S1024x640_S2048x1024_1_1_0_0_n_n : DotDims S2048x640 S1024x640 S2048x1024 where
  lhsContracting := [1]
  rhsContracting := [1]
  lhsNonContracting := [0]
  rhsNonContracting := [0]
  lhsBatch := []
  rhsBatch := []
  wf := dot_S2048x640_S1024x640_S2048x1024_1_1_0_0_n_n_wf

abbrev win0_0 : Pipeline.Window sig grid0 :=
  Pipeline.Window.ofSpec (Memref.whole main_arg0) S1x32x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x640 : Shape := ⟨3, ![8, 256, 640]⟩
abbrev S8x64x640 : Shape := ⟨3, ![8, 64, 640]⟩
abbrev S1024x640 : Shape := ⟨2, ![1024, 640]⟩
abbrev S1024 : Shape := ⟨1, ![1024]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x256x640, .f32⟩
  | .hbm, ⟨1, _⟩ => ⟨S8x64x640, .f32⟩
  | .hbm, ⟨2, _⟩ => ⟨S1024x640, .f32⟩
  | .hbm, ⟨3, _⟩ => ⟨S1024, .f32⟩
  | .hbm, ⟨4, _⟩ => ⟨S8x256x1x640, .f32⟩
  | .hbm, ⟨5, _⟩ => ⟨S8x1x64x640, .f32⟩
  | .hbm, ⟨6, _⟩ => ⟨S8x256x64x640, .f32⟩
  | .hbm, ⟨7, _⟩ => ⟨S8x256x64x640, .f32⟩
  | .hbm, ⟨8, _⟩ => ⟨S8x256x64x640, .f32⟩
  | .hbm, ⟨9, _⟩ => ⟨S_, .f32⟩
  | .hbm, ⟨10, _⟩ => ⟨S8x256x64x640, .f32⟩
  | .hbm, ⟨11, _⟩ => ⟨S8x256x64x640, .f32⟩
  | .hbm, ⟨12, _⟩ => ⟨S8x256x64x1024, .f32⟩
  | .hbm, ⟨13, _⟩ => ⟨S1x1x1x1024, .f32⟩
  | .hbm, ⟨14, _⟩ => ⟨S8x256x64x1024, .f32⟩
  | .hbm, ⟨15, _⟩ => ⟨S8x256x64x1024, .f32⟩
  | _, _ => ⟨S8x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S_S8x256x64x640 : S_.BroadcastsInDim S8x256x64x640 (![] : Fin 0 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x640_S1024x640_S8x256x64x1024_3_1_012_0_n_n_wf : DotDims.WF S8x256x64x640 S1024x640 S8x256x64x1024 [3] [1] [0, 1, 2] [0] [] []

variable [Facts₀]

def dot_S8x256x64x640_S1024x640_S8x256x64x1024_3_1_012_0_n_n : DotDims S8x256x64x640 S1024x640 S8x256x64x1024 where
  lhsContracting := [3]
  rhsContracting := [1]
  lhsNonContracting := [0, 1, 2]
  rhsNonContracting := [0]
  lhsBatch := []
  rhsBatch := []
  wf := dot_S8x256x64x640_S1024x640_S8x256x64x1024_3_1_012_0_n_n_wf

class Facts : Prop extends Facts₀ where

variable [Facts]
-- ==== Proof.JointLogits.lean ====
/-
  The joint network's logits as ONE function of the four argument arrays, over the extended reals.

  For a batch entry `n`, an acoustic frame `t`, a label position `u` and a vocabulary entry `v`,

      logit n t u v  =  (∑ h < 640, max (f[n,t,h] + p[n,u,h]) 0 · W[v,h]) + bias[v] :

  the two encodings are added for every pair (frame, label position), the sum is rectified, the rectified vector is
  projected on row `v` of the weight matrix, and the bias of `v` is added last. The zero the rectifier compares with
  is kept as the float word both programs print for it, so it is never evaluated. Nothing here depends on a program:
  the coordinates are literal `Fin`s and every index is built from them.
-/
import Idealize.ShloMosaic.PureOps.Ideal
import Idealize.ShloMosaic.Lib.ValueIdx

noncomputable section

open scoped BigOperators

namespace Cert.Joint

open Idealize.ShloMosaic Idealize.ShloMosaic.ValueIdx

/-- One logit from its four coordinates: the rectified sum of frame `t`'s and label position `u`'s encodings of
    batch entry `n`, projected on row `v` of the weights, plus the bias of `v`. -/
def logitAt (f : (⟨3, ![8, 256, 640]⟩ : Shape).Idx → EReal) (p : (⟨3, ![8, 64, 640]⟩ : Shape).Idx → EReal)
    (W : (⟨2, ![1024, 640]⟩ : Shape).Idx → EReal) (b : (⟨1, ![1024]⟩ : Shape).Idx → EReal)
    (n : Fin 8) (t : Fin 256) (u : Fin 64) (v : Fin 1024) : EReal :=
  (∑ h : Fin 640, max (f (ix3 n t h) + p (ix3 n u h)) (Ideal.ofBits .f32 0x00000000#32) * W (ix2 v h)) + b (ix1 v)

/-- The whole [8, 256, 64, 1024] array of logits. -/
def logits (f : (⟨3, ![8, 256, 640]⟩ : Shape).Idx → EReal) (p : (⟨3, ![8, 64, 640]⟩ : Shape).Idx → EReal)
    (W : (⟨2, ![1024, 640]⟩ : Shape).Idx → EReal) (b : (⟨1, ![1024]⟩ : Shape).Idx → EReal) :
    (⟨4, ![8, 256, 64, 1024]⟩ : Shape).Idx → EReal :=
  fun i => logitAt f p W b (i 0) (i 1) (i 2) (i 3)

/-- At an index given by its coordinates the array holds that logit. -/
theorem logits_ix4 (f : (⟨3, ![8, 256, 640]⟩ : Shape).Idx → EReal) (p : (⟨3, ![8, 64, 640]⟩ : Shape).Idx → EReal)
    (W : (⟨2, ![1024, 640]⟩ : Shape).Idx → EReal) (b : (⟨1, ![1024]⟩ : Shape).Idx → EReal)
    (n : Fin 8) (t : Fin 256) (u : Fin 64) (v : Fin 1024) :
    logits f p W b (ix4 n t u v) = logitAt f p W b n t u v := rfl

end Cert.Joint

end
-- ==== Proof.BodyLogits.lean ====
/-
  One grid point's block of logits, read at an index.

  At a grid point the body holds a [1, 32, 640] block of frame encodings `x0`, the [1, 64, 640] block of label
  encodings `x1` of the same batch entry, the whole [1024, 640] weight matrix `x2` and the bias `x3`. It adds the two
  encodings for the 32 × 64 pairs (frame r, label position u), rectifies, lays the pairs out as the 2048 rows
  64·r + u of a matrix, multiplies by the transposed weights into a zero accumulator, folds the rows back into
  pairs and adds the bias along the last axis. Read at the entry (0, r, u, v) of the stored block, over the
  extended reals, that is

      (∑ h < 640, max (x0[0,r,h] + x1[0,u,h]) 0 · x2[v,h]) + x3[v] :

  and, when the four blocks are the blocks of the whole arrays at batch entry n and frame block q, that is the logit
  of the whole arrays at (n, 32·q + r, u, v) (`block_logits`). Every reshape and broadcast only moves an index (each is read through its row-major position or its unit axes),
  the change of float format is the identity, and a product into a zero accumulator is the plain sum over the one
  contracted axis.
-/
import proofs.«181790_j48438641164781_2_alg».proof.Proof.Gen.KernelIdeal.Skeleton
import proofs.«181790_j48438641164781_2_alg».proof.Proof.JointLogits
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The matrix row that holds the pair (frame r, label position u): 64·r + u. -/
def row (r : Fin 32) (u : Fin 64) : Fin 2048 := ⟨64 * r.val + u.val, by have := r.isLt; have := u.isLt; omega⟩

/-- The rectified sums of the two encodings, one matrix row per pair, as the product's left operand. -/
def hidden (x0 : FVec Ideal S1x32x640 .f32) (x1 : FVec Ideal S1x64x640 .f32) : FVec Ideal S2048x640 .bf16 :=
  truncf .bf16 (shapeCast S2048x640 (maximumf (addf
      (broadcastTo S32x64x640 (shapeCast S32x1x640 (shapeCast S32x640 x0 shapeCasts_S1x32x640_S32x640) shapeCasts_S32x640_S32x1x640) broadcasts_S32x1x640_S32x64x640)
      (broadcastTo S32x64x640 (shapeCast S1x64x640 (shapeCast S64x640 x1 shapeCasts_S1x64x640_S64x640) shapeCasts_S64x640_S1x64x640) broadcasts_S1x64x640_S32x64x640))
    (broadcast S32x64x640 (Scalar.ofBits .f32 0x00000000#32))) shapeCasts_S32x64x640_S2048x640) bitsLt_bf16_f32

/-- The bias repeated over the 32 × 64 pairs. -/
def biasRows (x3 : FVec Ideal S1024 .f32) : FVec Ideal S32x64x1024 .f32 :=
  broadcastTo S32x64x1024 (shapeCast S1x1x1024 x3 shapeCasts_S1024_S1x1x1024) broadcasts_S1x1x1024_S32x64x1024

/-- The stored block is the product of the rectified sums with the transposed weights, folded back into pairs,
    plus the repeated bias: the body's own operations, grouped. -/
theorem pay_split (x0 : FVec Ideal S1x32x640 .f32) (x1 : FVec Ideal S1x64x640 .f32) (x2 : FVec Ideal S1024x640 .bf16) (x3 : FVec Ideal S1024 .f32) :
    k0_pay1 (F := Ideal) x0 x1 x2 x3
      = shapeCast S1x32x64x1024 (addf
          (shapeCast S32x64x1024 (matmul dot_S2048x640_S1024x640_S2048x1024_1_1_0_0_n_n none (hidden x0 x1)
            (shapeCast S1024x640 x2 shapeCasts_S1024x640_S1024x640) (constant S2048x1024 .f32 0x00000000#32)) shapeCasts_S2048x1024_S32x64x1024)
          (biasRows x3)) shapeCasts_S32x64x1024_S1x32x64x1024 := rfl

/-- Frame r's encoding, repeated over the label positions, read at (r, u, h). -/
theorem frames_apply (x0 : FVec Ideal S1x32x640 .f32) (r : Fin 32) (u : Fin 64) (h : Fin 640) :
    broadcastTo S32x64x640 (shapeCast S32x1x640 (shapeCast S32x640 x0 shapeCasts_S1x32x640_S32x640) shapeCasts_S32x640_S32x1x640) broadcasts_S32x1x640_S32x64x640 (ix3 r u h)
      = x0 (ix3 (0 : Fin 1) r h) := by
  refine (broadcastTo_apply _ _ (ix3 r u h) (ix3 r (0 : Fin 1) h) (fun a => match a with
    | ⟨0, _⟩ => by show r.val = if (32 : Nat) = 1 then 0 else r.val; rw [if_neg (by decide)]
    | ⟨1, _⟩ => by show 0 = if (1 : Nat) = 1 then 0 else u.val; rw [if_pos rfl]
    | ⟨2, _⟩ => by show h.val = if (640 : Nat) = 1 then 0 else h.val; rw [if_neg (by decide)])).trans ?_
  refine (shapeCast_apply _ _ (ix3 r (0 : Fin 1) h) (ix2 r h) ?_).trans ?_
  · rw [Shape.rowMajor_val_two, Shape.rowMajor_val_three]
    show r.val * 640 + h.val = (r.val * 1 + 0) * 640 + h.val
    omega
  refine shapeCast_apply _ _ (ix2 r h) (ix3 (0 : Fin 1) r h) ?_
  rw [Shape.rowMajor_val_three, Shape.rowMajor_val_two]
  show (0 * 32 + r.val) * 640 + h.val = r.val * 640 + h.val
  omega

/-- Label position u's encoding, repeated over the frames, read at (r, u, h). -/
theorem labels_apply (x1 : FVec Ideal S1x64x640 .f32) (r : Fin 32) (u : Fin 64) (h : Fin 640) :
    broadcastTo S32x64x640 (shapeCast S1x64x640 (shapeCast S64x640 x1 shapeCasts_S1x64x640_S64x640) shapeCasts_S64x640_S1x64x640) broadcasts_S1x64x640_S32x64x640 (ix3 r u h)
      = x1 (ix3 (0 : Fin 1) u h) := by
  rw [shapeCast_shapeCast]
  exact broadcastTo_apply _ _ (ix3 r u h) (ix3 (0 : Fin 1) u h) (fun a => match a with
    | ⟨0, _⟩ => by show 0 = if (1 : Nat) = 1 then 0 else r.val; rw [if_pos rfl]
    | ⟨1, _⟩ => by show u.val = if (64 : Nat) = 1 then 0 else u.val; rw [if_neg (by decide)]
    | ⟨2, _⟩ => by show h.val = if (640 : Nat) = 1 then 0 else h.val; rw [if_neg (by decide)])

/-- Row 64·r + u of the left operand holds the rectified sum of frame r's and label position u's encodings. -/
theorem hidden_apply (x0 : FVec Ideal S1x32x640 .f32) (x1 : FVec Ideal S1x64x640 .f32) (r : Fin 32) (u : Fin 64) (h : Fin 640) :
    hidden x0 x1 (ix2 (row r u) h)
      = max (x0 (ix3 (0 : Fin 1) r h) + x1 (ix3 (0 : Fin 1) u h)) (Ideal.ofBits .f32 0x00000000#32) := by
  unfold hidden
  refine (truncf_apply (ψ := .bf16) _ bitsLt_bf16_f32 _).trans ?_
  refine (shapeCast_apply _ _ (ix2 (row r u) h) (ix3 r u h) ?_).trans ?_
  · rw [Shape.rowMajor_val_three, Shape.rowMajor_val_two]
    show (r.val * 64 + u.val) * 640 + h.val = (64 * r.val + u.val) * 640 + h.val
    omega
  refine (maximumf_apply _ _ _).trans ?_
  refine congrArg₂ max ?_ rfl
  refine (addf_apply _ _ _).trans ?_
  exact congrArg₂ (· + ·) (frames_apply x0 r u h) (labels_apply x1 r u h)

/-- The repeated bias read at (r, u, v) is the bias of v. -/
theorem biasRows_apply (x3 : FVec Ideal S1024 .f32) (r : Fin 32) (u : Fin 64) (v : Fin 1024) :
    biasRows x3 (ix3 r u v) = x3 (ix1 v) := by
  unfold biasRows
  refine (broadcastTo_apply _ _ (ix3 r u v) (ix3 (0 : Fin 1) (0 : Fin 1) v) (fun a => match a with
    | ⟨0, _⟩ => by show 0 = if (1 : Nat) = 1 then 0 else r.val; rw [if_pos rfl]
    | ⟨1, _⟩ => by show 0 = if (1 : Nat) = 1 then 0 else u.val; rw [if_pos rfl]
    | ⟨2, _⟩ => by show v.val = if (1024 : Nat) = 1 then 0 else v.val; rw [if_neg (by decide)])).trans ?_
  refine shapeCast_apply _ _ (ix3 (0 : Fin 1) (0 : Fin 1) v) (ix1 v) ?_
  rw [Shape.rowMajor_val_one, Shape.rowMajor_val_three]
  show v.val = (0 * 1 + 0) * 1024 + v.val
  omega

/-- The left operand's index of the product at output (ρ, v) and contraction index q: row ρ, -/
theorem lhs_row (j : S2048x1024.Idx) (q : dot_S2048x640_S1024x640_S2048x1024_1_1_0_0_n_n.contr.Idx) :
    (dot_S2048x640_S1024x640_S2048x1024_1_1_0_0_n_n.lhsIdx j q 0).val = (j 0).val := by
  unfold DotDims.lhsIdx
  rw [dif_neg (show ¬(0 : Fin S2048x640.rank) ∈ dot_S2048x640_S1024x640_S2048x1024_1_1_0_0_n_n.lhsBatch by decide),
    dif_pos (show (0 : Fin S2048x640.rank) ∈ dot_S2048x640_S1024x640_S2048x1024_1_1_0_0_n_n.lhsNonContracting by decide)]
  rfl

/-- and the right operand's: row v of the weights (the product contracts the weights' second axis). -/
theorem rhs_row (j : S2048x1024.Idx) (q : dot_S2048x640_S1024x640_S2048x1024_1_1_0_0_n_n.contr.Idx) :
    (dot_S2048x640_S1024x640_S2048x1024_1_1_0_0_n_n.rhsIdx j q 0).val = (j 1).val := by
  unfold DotDims.rhsIdx
  rw [dif_neg (show ¬(0 : Fin S1024x640.rank) ∈ dot_S2048x640_S1024x640_S2048x1024_1_1_0_0_n_n.rhsBatch by decide),
    dif_pos (show (0 : Fin S1024x640.rank) ∈ dot_S2048x640_S1024x640_S2048x1024_1_1_0_0_n_n.rhsNonContracting by decide)]
  rfl

/-- The product into the zero accumulator, read at (ρ, v): the sum over the 640 hidden coordinates of the left
    operand's row ρ times the weights' row v. -/
theorem product_apply (A : FVec Ideal S2048x640 .bf16) (x2 : FVec Ideal S1024x640 .bf16) (ρ : Fin 2048) (v : Fin 1024) :
    matmul dot_S2048x640_S1024x640_S2048x1024_1_1_0_0_n_n none A (shapeCast S1024x640 x2 shapeCasts_S1024x640_S1024x640)
        (constant S2048x1024 .f32 0x00000000#32) (ix2 ρ v)
      = ∑ h : Fin 640, A (ix2 ρ h) * x2 (ix2 v h) := by
  rw [shapeCast_self]
  simp only [matmul]
  rw [Ideal.matmul_constant_zero_apply,
    ← Equiv.sum_comp (contrEquiv1 dot_S2048x640_S1024x640_S2048x1024_1_1_0_0_n_n 640 rfl rfl).symm]
  refine Finset.sum_congr rfl fun h _ => ?_
  have hh := contrEquiv1_symm_val dot_S2048x640_S1024x640_S2048x1024_1_1_0_0_n_n 640 rfl rfl h
  have el : dot_S2048x640_S1024x640_S2048x1024_1_1_0_0_n_n.lhsIdx (ix2 ρ v)
      ((contrEquiv1 dot_S2048x640_S1024x640_S2048x1024_1_1_0_0_n_n 640 rfl rfl).symm h) = ix2 ρ h :=
    funext fun a => Fin.ext (by
      match a with
      | ⟨0, _⟩ => exact lhs_row _ _
      | ⟨1, _⟩ => exact (dot_S2048x640_S1024x640_S2048x1024_1_1_0_0_n_n.lhsIdx_val_of_single rfl _ _).trans hh)
  have er : dot_S2048x640_S1024x640_S2048x1024_1_1_0_0_n_n.rhsIdx (ix2 ρ v)
      ((contrEquiv1 dot_S2048x640_S1024x640_S2048x1024_1_1_0_0_n_n 640 rfl rfl).symm h) = ix2 v h :=
    funext fun a => Fin.ext (by
      match a with
      | ⟨0, _⟩ => exact rhs_row _ _
      | ⟨1, _⟩ => exact (dot_S2048x640_S1024x640_S2048x1024_1_1_0_0_n_n.rhsIdx_val_of_single rfl _ _).trans hh)
  rw [el, er]

/-- THE STORED BLOCK AT (0, r, u, v): the rectified sum of the block's frame r and label position u, projected on the
    weights' row v, plus the bias of v. -/
theorem pay_apply (x0 : FVec Ideal S1x32x640 .f32) (x1 : FVec Ideal S1x64x640 .f32) (x2 : FVec Ideal S1024x640 .bf16) (x3 : FVec Ideal S1024 .f32)
    (r : Fin 32) (u : Fin 64) (v : Fin 1024) :
    k0_pay1 (F := Ideal) x0 x1 x2 x3 (ix4 (0 : Fin 1) r u v)
      = (∑ h : Fin 640, max (x0 (ix3 (0 : Fin 1) r h) + x1 (ix3 (0 : Fin 1) u h)) (Ideal.ofBits .f32 0x00000000#32) * x2 (ix2 v h))
        + x3 (ix1 v) := by
  rw [pay_split]
  refine (shapeCast_apply _ _ (ix4 (0 : Fin 1) r u v) (ix3 r u v) ?_).trans ?_
  · rw [Shape.rowMajor_val_three, Shape.rowMajor_val_four]
    show (r.val * 64 + u.val) * 1024 + v.val = ((0 * 32 + r.val) * 64 + u.val) * 1024 + v.val
    omega
  refine (addf_apply _ _ _).trans ?_
  refine congrArg₂ (· + ·) ?_ (biasRows_apply x3 r u v)
  refine (shapeCast_apply _ _ (ix3 r u v) (ix2 (row r u) v) ?_).trans ?_
  · rw [Shape.rowMajor_val_two, Shape.rowMajor_val_three]
    show (64 * r.val + u.val) * 1024 + v.val = (r.val * 64 + u.val) * 1024 + v.val
    omega
  refine (product_apply (hidden x0 x1) x2 (row r u) v).trans ?_
  exact Finset.sum_congr rfl fun h _ => by rw [hidden_apply]

/-- Frame r of the q-th block of 32 frames: frame 32·q + r of the array. -/
def frame (q : Fin 8) (r : Fin 32) : Fin 256 := ⟨32 * q.val + r.val, by have := q.isLt; have := r.isLt; omega⟩

/-- A BLOCK OF LOGITS. Let `x0` be the frames 32·q … 32·q + 31 of batch entry `n` of `f`, `x1` the label encodings of
    batch entry `n` of `p`, `x2` the weights and `x3` the bias. Then the stored block at `j` is the array of logits of
    `f, p, W, b` at the index `i` that lies in batch entry `n`, at frame 32·q + j₁, label position j₂ and vocabulary
    entry j₃. -/
theorem block_logits (f : S8x256x640.Idx → EReal) (p : S8x64x640.Idx → EReal) (W : S1024x640.Idx → EReal) (b : S1024.Idx → EReal)
    (x0 : FVec Ideal S1x32x640 .f32) (x1 : FVec Ideal S1x64x640 .f32) (x2 : FVec Ideal S1024x640 .bf16) (x3 : FVec Ideal S1024 .f32)
    (n : Fin 8) (q : Fin 8)
    (h0 : ∀ (r : Fin 32) (h : Fin 640), x0 (ix3 (0 : Fin 1) r h) = f (ix3 n (frame q r) h))
    (h1 : ∀ (u : Fin 64) (h : Fin 640), x1 (ix3 (0 : Fin 1) u h) = p (ix3 n u h))
    (h2 : ∀ (v : Fin 1024) (h : Fin 640), x2 (ix2 v h) = W (ix2 v h))
    (h3 : ∀ v : Fin 1024, x3 (ix1 v) = b (ix1 v))
    (j : S1x32x64x1024.Idx) (i : S8x256x64x1024.Idx)
    (e0 : (i 0).val = n.val) (e1 : (i 1).val = 32 * q.val + (j 1).val) (e2 : (i 2).val = (j 2).val) (e3 : (i 3).val = (j 3).val) :
    k0_pay1 (F := Ideal) x0 x1 x2 x3 j = Cert.Joint.logits f p W b i := by
  obtain ⟨z, r, u, v, rfl⟩ : ∃ (z : Fin 1) (r : Fin 32) (u : Fin 64) (v : Fin 1024), j = ix4 z r u v :=
    ⟨j 0, j 1, j 2, j 3, eq_ix4 j⟩
  obtain rfl : z = 0 := Subsingleton.elim _ _
  have hi : i = ix4 n (frame q r) u v := funext fun a => Fin.ext (by
    match a with
    | ⟨0, _⟩ => exact e0
    | ⟨1, _⟩ => exact e1
    | ⟨2, _⟩ => exact e2
    | ⟨3, _⟩ => exact e3)
  rw [hi, pay_apply, Cert.Joint.logits_ix4]
  unfold Cert.Joint.logitAt
  simp only [h0, h1, h2, h3]

end Cert.KernelIdeal.Body

end
-- ==== Proof.KernelLogits.lean ====
/-
  The kernel's result array is the array of logits.

  The grid has 8 × 8 points; point (n, q) reads frames 32·q … 32·q + 31 of batch entry n, all 64 label positions of
  batch entry n, the whole weight matrix (as the host cast it to the narrower float format before the launch — at
  the extended reals the cast is the identity, so the region finds the weights themselves) and the whole bias, and
  writes the [1, 32, 64, 1024] block (n, q, 0, 0) of the result. An element of a block sits in its array, on each
  axis, at block index × block size + its coordinate inside the block; the printed index maps are compared once
  over the 64 points. So what point (n, q) writes back is block (n, q, 0, 0) of the array of logits (the body's
  block at an index is the logit at the array index under it), the 64 blocks cover the result array (the entry
  (n, t, u, v) lies in the block of point (n, t / 32)), and the array therefore ends holding the logits of the four
  arguments, which end as they were launched.
-/
import proofs.«181790_j48438641164781_2_alg».proof.Proof.Gen.KernelIdeal.Value
import proofs.«181790_j48438641164781_2_alg».proof.Proof.BodyLogits
import proofs.«181790_j48438641164781_2_alg».proof.Proof.JointLogits
import Idealize.ShloMosaic.Lib.StableHlo.Run

set_option maxRecDepth 16384

noncomputable section

namespace Cert.KernelIdeal.Logits

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Zero offsets, however spelt -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays as the region finds them, and the index maps -/

/-- The region finds the weights themselves in the array the host wrote their narrowed copy to: over the extended
    reals narrowing the float format changes nothing. -/
theorem weights_eq (c : Dev nD) : (V m c main_v0 : S1024x640.Idx → EReal) = m ((c : Thread nD τ).loc main_arg2) := by
  dsimp only [Gen.V, Gen.hostOps0]
  after_results
  rfl

/-- The printed index maps, compared over the 64 grid points: the frames' block moves with the result's on the batch
    and frame axes, the labels' block on the batch axis, every other block index is zero, and the result's block
    indices on the batch and frame axes stay below 8. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (2 : Fin 4) = 0 ∧ win0_4.index t (3 : Fin 4) = 0
    ∧ win0_4.index t (0 : Fin 4) ≤ 7 ∧ win0_4.index t (1 : Fin 4) ≤ 7 :=
  (by decide +kernel : ∀ t : Fin grid0.N, _)

/-- Every pair (batch entry, frame block) is some point's. -/
theorem idx_onto : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-- The batch entry point `t` works on, -/
def batchOf (t : Fin cfg0.N) : Fin 8 := ⟨win0_4.index t (0 : Fin 4), by have := (idx_facts t).2.2.2.2.2.2.2.2.2.2.2.1; omega⟩
/-- and its block of 32 frames. -/
def blockOf (t : Fin cfg0.N) : Fin 8 := ⟨win0_4.index t (1 : Fin 4), by have := (idx_facts t).2.2.2.2.2.2.2.2.2.2.2.2; omega⟩

/-! ## The four input blocks at a point, read off the launch arrays -/

/-- Frame r of point `t`'s block of frame encodings is frame 32·q + r of batch entry n of `f`. -/
theorem frames_blk (c : Dev nD) (t : Fin cfg0.N) (r : Fin 32) (h : Fin 640) :
    iblk m c 0 t (ix3 (0 : Fin 1) r h)
      = m ((c : Thread nD τ).loc main_arg0) (ix3 (batchOf t) (Body.frame (blockOf t) r) h) := by
  obtain ⟨e0, e1, e2, -⟩ := idx_facts t
  show V m c main_arg0 (((cfg0.win 0).blk t).view.emb (ix3 (0 : Fin 1) r h)) = _
  rw [V_main_arg0]
  refine congrArg _ (funext fun a => Fin.ext ?_)
  match a with
  | ⟨0, _⟩ => show win0_0.index t (0 : Fin 3) * 1 + 1 * 0 = win0_4.index t (0 : Fin 4); omega
  | ⟨1, _⟩ => show win0_0.index t (1 : Fin 3) * 32 + 1 * r.val = 32 * win0_4.index t (1 : Fin 4) + r.val; omega
  | ⟨2, _⟩ => show win0_0.index t (2 : Fin 3) * 640 + 1 * h.val = h.val; omega

/-- Label position u of point `t`'s block of label encodings is label position u of batch entry n of `p`. -/
theorem labels_blk (c : Dev nD) (t : Fin cfg0.N) (u : Fin 64) (h : Fin 640) :
    iblk m c 1 t (ix3 (0 : Fin 1) u h) = m ((c : Thread nD τ).loc main_arg1) (ix3 (batchOf t) u h) := by
  obtain ⟨-, -, -, e3, e4, e5, -⟩ := idx_facts t
  show V m c main_arg1 (((cfg0.win 1).blk t).view.emb (ix3 (0 : Fin 1) u h)) = _
  rw [V_main_arg1]
  refine congrArg _ (funext fun a => Fin.ext ?_)
  match a with
  | ⟨0, _⟩ => show win0_1.index t (0 : Fin 3) * 1 + 1 * 0 = win0_4.index t (0 : Fin 4); omega
  | ⟨1, _⟩ => show win0_1.index t (1 : Fin 3) * 64 + 1 * u.val = u.val; omega
  | ⟨2, _⟩ => show win0_1.index t (2 : Fin 3) * 640 + 1 * h.val = h.val; omega

/-- The weights' block is the whole weight matrix. -/
theorem weights_blk (c : Dev nD) (t : Fin cfg0.N) (v : Fin 1024) (h : Fin 640) :
    iblk m c 2 t (ix2 v h) = m ((c : Thread nD τ).loc main_arg2) (ix2 v h) := by
  obtain ⟨-, -, -, -, -, -, e6, e7, -⟩ := idx_facts t
  show V m c main_v0 (((cfg0.win 2).blk t).view.emb (ix2 v h)) = _
  refine (congrFun (weights_eq m c) _).trans ?_
  refine congrArg _ (funext fun a => Fin.ext ?_)
  match a with
  | ⟨0, _⟩ => show win0_2.index t (0 : Fin 2) * 1024 + 1 * v.val = v.val; omega
  | ⟨1, _⟩ => show win0_2.index t (1 : Fin 2) * 640 + 1 * h.val = h.val; omega

/-- The bias' block is the whole bias. -/
theorem bias_blk (c : Dev nD) (t : Fin cfg0.N) (v : Fin 1024) :
    iblk m c 3 t (ix1 v) = m ((c : Thread nD τ).loc main_arg3) (ix1 v) := by
  obtain ⟨-, -, -, -, -, -, -, -, e8, -⟩ := idx_facts t
  show V m c main_arg3 (((cfg0.win 3).blk t).view.emb (ix1 v)) = _
  rw [V_main_arg3]
  refine congrArg _ (funext fun a => Fin.ext ?_)
  match a with
  | ⟨0, _⟩ => show win0_3.index t (0 : Fin 1) * 1024 + 1 * v.val = v.val; omega

/-! ## What a point writes back, the cover, and the array after the run -/

/-- The logits of the four arguments as launched on core `c`. -/
abbrev result (c : Dev nD) : S8x256x64x1024.Idx → EReal :=
  Cert.Joint.logits (m ((c : Thread nD τ).loc main_arg0)) (m ((c : Thread nD τ).loc main_arg1))
    (m ((c : Thread nD τ).loc main_arg2)) (m ((c : Thread nD τ).loc main_arg3))

/-- WHAT POINT `t` WRITES BACK is block `t` of the array of logits. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz4]
  simp only [View.ld_unit_zero (S := S1x32x640) hz3, View.ld_unit_zero (S := S1x64x640) hz3,
    View.ld_unit_zero (S := S1024x640) hz2, View.ld_unit_zero (S := S1024) hz1]
  funext j
  obtain ⟨-, -, -, -, -, -, -, -, -, e9, e10, -, -⟩ := idx_facts t
  have hj0 : (j 0).val < 1 := (j 0).isLt
  refine Body.block_logits (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (batchOf t) (blockOf t)
    (frames_blk m c t) (labels_blk m c t) (weights_blk m c t) (bias_blk m c t)
    ((cfg0.win 4).xinj (grid0.coords t) j) (((cfg0.win 4).blk t).view.emb j) ?_ ?_ ?_ ?_
  · show win0_4.index t (0 : Fin 4) * 1 + 1 * (j 0).val = win0_4.index t (0 : Fin 4); omega
  · show win0_4.index t (1 : Fin 4) * 32 + 1 * (j 1).val = 32 * win0_4.index t (1 : Fin 4) + (j 1).val; omega
  · show win0_4.index t (2 : Fin 4) * 64 + 1 * (j 2).val = (j 2).val; omega
  · show win0_4.index t (3 : Fin 4) * 1024 + 1 * (j 3).val = (j 3).val; omega

/-- An index of the result array is in point `t`'s block iff each coordinate is in the block's range on its axis. -/
theorem mem_blk (t : Fin cfg0.N) (i : S8x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v1).slice (win0_4.rect t)).set ↔ _
  rw [View.set_slice_whole, Rect.mem_set_unit]
  exact Iff.rfl

/-- THE BLOCKS COVER THE RESULT: the entry (n, t, u, v) lies in the block of the point of batch entry n and frame
    block t / 32. -/
theorem cover (i : S8x256x64x1024.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- THE RESULT ARRAY after the run holds the logits of the four arguments. -/
theorem final (c : Dev nD) : (dats m 0 c).arrAt 4 cfg0.N = result m c :=
  (dats m 0 c).arrAt_eq_of_cover 4 (result m c) (fun t _ => flushed_eq m c t) cover

/-- The kernel's run: every weakly fair execution terminates with the result array at the logits of the four
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Logits

end
-- ==== Proof.RefLogits.lean ====
/-
  The reference computes the joint network's logits.

  Its program broadcasts the frame encodings over the label positions and the label encodings over the frames, adds
  them, rectifies against a zero constant, contracts the hidden axis with the weights' second axis and adds the
  bias broadcast along the last axis. Read at the index (n, t, u, v), one operation at a time, every broadcast
  only drops or repeats a coordinate, and the contraction is the sum over the 640 hidden coordinates: the entry is

      (∑ h < 640, max (f[n,t,h] + p[n,u,h]) 0 · W[v,h]) + bias[v],

  the specification's `logitAt`, term for term.
-/
import proofs.«181790_j48438641164781_2_alg».proof.Proof.Gen.ReferenceIdeal.Read
import proofs.«181790_j48438641164781_2_alg».proof.Proof.JointLogits

noncomputable section

open scoped BigOperators

namespace Cert.ReferenceIdeal.RefLogits

open Cert.ReferenceIdeal Cert.ReferenceIdeal.Gen Cert.ReferenceIdeal.Read Idealize.ShloMosaic Idealize.ShloMosaic.ValueIdx

/-- The reference's result at (n, t, u, v) is that logit. -/
theorem result_at (x0 : (⟨S8x256x640, .f32⟩ : BufTy).Contents (Elt Ideal)) (x1 : (⟨S8x64x640, .f32⟩ : BufTy).Contents (Elt Ideal))
    (x2 : (⟨S1024x640, .f32⟩ : BufTy).Contents (Elt Ideal)) (x3 : (⟨S1024, .f32⟩ : BufTy).Contents (Elt Ideal))
    (n : Fin 8) (t : Fin 256) (u : Fin 64) (v : Fin 1024) :
    val_main_v9 (F := Ideal) x0 x1 x2 x3 (ix4 n t u v) = Cert.Joint.logitAt x0 x1 x2 x3 n t u v := by
  rw [val_main_v9_apply, val_main_v6_apply, val_main_v8_apply, val_main_v7_apply]
  unfold Cert.Joint.logitAt
  refine congrArg₂ (· + ·) (Finset.sum_congr rfl fun h _ => ?_) ?_
  · -- the rectified sum at (n, t, u, h) times the weight (v, h)
    rw [val_main_v5_apply, val_main_v4_apply, val_main_v2_apply, val_main_v0_apply, val_main_v3_apply, val_main_v1_apply,
      val_main_call0_v0_apply, val_main_call0_cst_apply]
    have e0 : idx_main_v0 (idx_main_v2 (lidx_main_v6 (ix4 n t u v) h)) = ix3 n t h :=
      funext fun a => Fin.ext (by match a with | ⟨0, _⟩ => rfl | ⟨1, _⟩ => rfl | ⟨2, _⟩ => rfl)
    have e1 : idx_main_v1 (idx_main_v3 (lidx_main_v6 (ix4 n t u v) h)) = ix3 n u h :=
      funext fun a => Fin.ext (by match a with | ⟨0, _⟩ => rfl | ⟨1, _⟩ => rfl | ⟨2, _⟩ => rfl)
    have e2 : ridx_main_v6 (ix4 n t u v) h = ix2 v h :=
      funext fun a => Fin.ext (by match a with | ⟨0, _⟩ => rfl | ⟨1, _⟩ => rfl)
    rw [e0, e1, e2]
    rfl
  · -- the bias of v
    exact congrArg x3 (funext fun a => Fin.ext (by match a with | ⟨0, _⟩ => rfl))

/-- THE REFERENCE'S RESULT ARRAY is the array of logits of its four arguments. -/
theorem result_eq (x0 : (⟨S8x256x640, .f32⟩ : BufTy).Contents (Elt Ideal)) (x1 : (⟨S8x64x640, .f32⟩ : BufTy).Contents (Elt Ideal))
    (x2 : (⟨S1024x640, .f32⟩ : BufTy).Contents (Elt Ideal)) (x3 : (⟨S1024, .f32⟩ : BufTy).Contents (Elt Ideal)) :
    val_main_v9 (F := Ideal) x0 x1 x2 x3 = Cert.Joint.logits x0 x1 x2 x3 := by
  funext i
  obtain ⟨n, t, u, v, rfl⟩ : ∃ (n : Fin 8) (t : Fin 256) (u : Fin 64) (v : Fin 1024), i = ix4 n t u v :=
    ⟨i 0, i 1, i 2, i 3, eq_ix4 i⟩
  exact result_at x0 x1 x2 x3 n t u v

end Cert.ReferenceIdeal.RefLogits

end
-- ==== Proof.lean ====
/-
  The joint network of a sequence transducer, as a tiled kernel and as its plain array reference, compute the same
  array of logits over the extended reals.

  Both programs take frame encodings f [8, 256, 640], label encodings p [8, 64, 640], weights W [1024, 640] and a
  bias [1024], and produce the [8, 256, 64, 1024] array

      logits[n,t,u,v] = (∑ h < 640, max (f[n,t,h] + p[n,u,h]) 0 · W[v,h]) + bias[v].

  The kernel walks an 8 × 8 grid; at the point (n, q) it forms the rectified sums for the 32 frames of block q and the
  64 label positions of batch entry n, multiplies them as a 2048-row matrix with the transposed weights — which the
  host has narrowed to a shorter float format beforehand, as the body narrows the rectified sums — into a zero
  accumulator, adds the bias and writes block (n, q, 0, 0) of the result. The reference broadcasts, adds, rectifies,
  contracts the hidden axis in one product and adds the bias. Over the extended reals a change of float format is
  the identity and a product into a zero accumulator is the plain sum over the contracted axis, so each side, read
  at an index, is the formula above with the same terms in the same order: no algebraic law beyond `0 + s = s` is
  used and the finiteness of the inputs is never needed.

  The modules: `JointLogits` states the formula; `RefLogits` reads the reference's operations at an index;
  `BodyLogits` reads the kernel body's block at an index; `KernelLogits` passes from the blocks the 64 points write
  back to the whole result array. The kernel's termination and the arguments' preservation (at the word level and
  at the extended reals), the kernel's run with its result array named, and the reference's run are generated
  modules, imported. The idealization rewrote no operation, so there is nothing to preserve beyond the text itself.
-/
import proofs.«181790_j48438641164781_2_alg».proof.Defs
import proofs.«181790_j48438641164781_2_alg».proof.Proof.Gen.Kernel
import proofs.«181790_j48438641164781_2_alg».proof.Proof.Gen.Kernel.Skeleton
import proofs.«181790_j48438641164781_2_alg».proof.Proof.Gen.Kernel.Launch
import proofs.«181790_j48438641164781_2_alg».proof.Proof.Gen.Kernel.Points
import proofs.«181790_j48438641164781_2_alg».proof.Proof.Gen.Kernel.Frame
import proofs.«181790_j48438641164781_2_alg».proof.Proof.Gen.KernelIdeal
import proofs.«181790_j48438641164781_2_alg».proof.Proof.Gen.KernelIdeal.Skeleton
import proofs.«181790_j48438641164781_2_alg».proof.Proof.Gen.KernelIdeal.Launch
import proofs.«181790_j48438641164781_2_alg».proof.Proof.Gen.KernelIdeal.Points
import proofs.«181790_j48438641164781_2_alg».proof.Proof.Gen.KernelIdeal.Frame
import proofs.«181790_j48438641164781_2_alg».proof.Proof.Gen.ReferenceIdeal
import proofs.«181790_j48438641164781_2_alg».proof.Proof.Gen.Pre_finite_inputs
import proofs.«181790_j48438641164781_2_alg».proof.Proof.Gen.KernelIdeal.Value
import proofs.«181790_j48438641164781_2_alg».proof.Proof.Gen.ReferenceIdeal.Run
import proofs.«181790_j48438641164781_2_alg».proof.Proof.Gen.ReferenceIdeal.Read
import proofs.«181790_j48438641164781_2_alg».proof.Proof.KernelLogits
import proofs.«181790_j48438641164781_2_alg».proof.Proof.RefLogits
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the array of logits of those arguments:
    the kernel by its blocks (`KernelLogits`), the reference by its operations read at an index (`RefLogits`). -/
theorem algebraic : Cert.algebraic_KernelIdeal_ReferenceIdeal := by
  intro m ρ m' ρ' _ hagree
  refine ⟨fun c => Cert.KernelIdeal.Logits.result m c, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v9_eq _ _ _ _).trans (Cert.ReferenceIdeal.RefLogits.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
